-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512x1024 : Shape := ⟨2, ![512, 1024]⟩
abbrev S1x1024 : Shape := ⟨2, ![1, 1024]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S64x512x512 .f32) (main_arg1 : FVec F S512x1024 .f32) (main_arg2 : FVec F S1x1024 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S64x512x512 : Shape := ⟨3, ![64, 512, 512]⟩
abbrev S512x1024 : Shape := ⟨2, ![512, 1024]⟩
abbrev S1x1024 : Shape := ⟨2, ![1, 1024]⟩
abbrev S512x64x1024 : Shape := ⟨3, ![512, 64, 1024]⟩
abbrev S16x128x512 : Shape := ⟨3, ![16, 128, 512]⟩
abbrev S128x16x1024 : Shape := ⟨3, ![128, 16, 1024]⟩
abbrev S128x16x512 : Shape := ⟨3, ![128, 16, 512]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S64x512x512, .f32⟩
  | .hbm, ⟨1, _⟩ => ⟨S512x1024, .f32⟩
  | .hbm, ⟨2, _⟩ => ⟨S1x1024, .f32⟩
  | .hbm, ⟨3, _⟩ => ⟨S512x64x1024, .f32⟩
  | .local _ .vmem, ⟨0, _⟩ => ⟨S16x128x512, .f32⟩
  | .local _ .vmem, ⟨1, _⟩ => ⟨S16x128x512, .f32⟩
  | .local _ .vmem, ⟨2, _⟩ => ⟨S512x1024, .f32⟩
  | .local _ .vmem, ⟨3, _⟩ => ⟨S1x1024, .f32⟩
  | .local _ .vmem, ⟨4, _⟩ => ⟨S128x16x1024, .f32⟩
  | .local _ .vmem, ⟨5, _⟩ => ⟨S128x16x1024, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S16x128x512_S16x128x512_0_0_0 : ∀ a, (![0, 0, 0] : Fin 3 → Nat) a + S16x128x512.size a ≤ S16x128x512.size a
  h_S16x128x512 : 0 < S16x128x512.numel
  bitsLt_bf16_f32 : FTy.bits .bf16 < FTy.bits .f32
  transposes_S16x128x512_p1_0_2_S128x16x512 : S16x128x512.Transposes [1, 0, 2] S128x16x512
  shapeCasts_S128x16x512_S2048x512 : S128x16x512.ShapeCasts S2048x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  shapeCasts_S2048x1024_S128x16x1024 : S2048x1024.ShapeCasts S128x16x1024
  inb_S128x16x1024_S128x16x1024_0_0_0 : ∀ a, (![0, 0, 0] : Fin 3 → Nat) a + S128x16x1024.size a ≤ S128x16x1024.size a
  h_S128x16x1024 : 0 < S128x16x1024.numel
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S64x512x512.size a
  hwx0_0 : ∀ i : grid0.Coords, EltTy.bits .f32 = 32 ∨ (Rect.block (s := S64x512x512) S16x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x1024.size a ≤ S512x64x1024.size a
  hwx0_3 : ∀ i : grid0.Coords, EltTy.bits .f32 = 32 ∨ (Rect.block (s := S512x64x1024) S128x16x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x16x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S512x1024 : Shape := ⟨2, ![512, 1024]⟩
abbrev S1x1024 : Shape := ⟨2, ![1, 1024]⟩
abbrev S512x65536 : Shape := ⟨2, ![512, 65536]⟩
abbrev S512x64x1024 : Shape := ⟨3, ![512, 64, 1024]⟩
abbrev S64x56x512 : Shape := ⟨3, ![64, 56, 512]⟩
abbrev S56x65536 : Shape := ⟨2, ![56, 65536]⟩
abbrev S1x56x512 : Shape := ⟨3, ![1, 56, 512]⟩
abbrev S56x512 : Shape := ⟨2, ![56, 512]⟩
abbrev S56x1024 : Shape := ⟨2, ![56, 1024]⟩

abbrev nBuf : Space → Nat
  | .hbm => 5
  | .vmem => 6
  | .smem => 0
  | _ => 0

abbrev bufTy : (tb : Table) → Fin (tcTables nBuf tb) → BufTy
  | .hbm, ⟨0, _⟩ => ⟨S64x512x512, .f32⟩
  | .hbm, ⟨1, _⟩ => ⟨S512x1024, .f32⟩
  | .hbm, ⟨2, _⟩ => ⟨S1x1024, .f32⟩
  | .hbm, ⟨3, _⟩ => ⟨S512x65536, .f32⟩
  | .hbm, ⟨4, _⟩ => ⟨S512x64x1024, .f32⟩
  | .local _ .vmem, ⟨0, _⟩ => ⟨S64x56x512, .f32⟩
  | .local _ .vmem, ⟨1, _⟩ => ⟨S64x56x512, .f32⟩
  | .local _ .vmem, ⟨2, _⟩ => ⟨S512x1024, .f32⟩
  | .local _ .vmem, ⟨3, _⟩ => ⟨S1x1024, .f32⟩
  | .local _ .vmem, ⟨4, _⟩ => ⟨S56x65536, .f32⟩
  | .local _ .vmem, ⟨5, _⟩ => ⟨S56x65536, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x56x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S56x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x65536_S512x64x1024 : S512x65536.ShapeCasts S512x64x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  inb_S64x56x512_S1x56x512_0_0_0 : ∀ a, (![0, 0, 0] : Fin 3 → Nat) a + S1x56x512.size a ≤ S64x56x512.size a
  h_S1x56x512 : 0 < S1x56x512.numel
  shapeCasts_S1x56x512_S56x512 : S1x56x512.ShapeCasts S56x512
  broadcasts_S1x1024_S56x1024 : S1x1024.Broadcasts S56x1024
  inb_S56x65536_S56x1024_0_0 : ∀ a, (![0, 0] : Fin 2 → Nat) a + S56x1024.size a ≤ S56x65536.size a
  h_S56x1024 : 0 < S56x1024.numel
  inb_S64x56x512_S1x56x512_1_0_0 : ∀ a, (![1, 0, 0] : Fin 3 → Nat) a + S1x56x512.size a ≤ S64x56x512.size a
  inb_S56x65536_S56x1024_0_1024 : ∀ a, (![0, 1024] : Fin 2 → Nat) a + S56x1024.size a ≤ S56x65536.size a
  inb_S64x56x512_S1x56x512_2_0_0 : ∀ a, (![2, 0, 0] : Fin 3 → Nat) a + S1x56x512.size a ≤ S64x56x512.size a
  inb_S56x65536_S56x1024_0_2048 : ∀ a, (![0, 2048] : Fin 2 → Nat) a + S56x1024.size a ≤ S56x65536.size a
  inb_S64x56x512_S1x56x512_3_0_0 : ∀ a, (![3, 0, 0] : Fin 3 → Nat) a + S1x56x512.size a ≤ S64x56x512.size a
  inb_S56x65536_S56x1024_0_3072 : ∀ a, (![0, 3072] : Fin 2 → Nat) a + S56x1024.size a ≤ S56x65536.size a
  inb_S64x56x512_S1x56x512_4_0_0 : ∀ a, (![4, 0, 0] : Fin 3 → Nat) a + S1x56x512.size a ≤ S64x56x512.size a
  inb_S56x65536_S56x1024_0_4096 : ∀ a, (![0, 4096] : Fin 2 → Nat) a + S56x1024.size a ≤ S56x65536.size a
  inb_S64x56x512_S1x56x512_5_0_0 : ∀ a, (![5, 0, 0] : Fin 3 → Nat) a + S1x56x512.size a ≤ S64x56x512.size a
  inb_S56x65536_S56x1024_0_5120 : ∀ a, (![0, 5120] : Fin 2 → Nat) a + S56x1024.size a ≤ S56x65536.size a
  inb_S64x56x512_S1x56x512_6_0_0 : ∀ a, (![6, 0, 0] : Fin 3 → Nat) a + S1x56x512.size a ≤ S64x56x512.size a
  inb_S56x65536_S56x1024_0_6144 : ∀ a, (![0, 6144] : Fin 2 → Nat) a + S56x1024.size a ≤ S56x65536.size a
  inb_S64x56x512_S1x56x512_7_0_0 : ∀ a, (![7, 0, 0] : Fin 3 → Nat) a + S1x56x512.size a ≤ S64x56x512.size a
  inb_S56x65536_S56x1024_0_7168 : ∀ a, (![0, 7168] : Fin 2 → Nat) a + S56x1024.size a ≤ S56x65536.size a
  inb_S64x56x512_S1x56x512_8_0_0 : ∀ a, (![8, 0, 0] : Fin 3 → Nat) a + S1x56x512.size a ≤ S64x56x512.size a
  inb_S56x65536_S56x1024_0_8192 : ∀ a, (![0, 8192] : Fin 2 → Nat) a + S56x1024.size a ≤ S56x65536.size a
  inb_S64x56x512_S1x56x512_9_0_0 : ∀ a, (![9, 0, 0] : Fin 3 → Nat) a + S1x56x512.size a ≤ S64x56x512.size a
  inb_S56x65536_S56x1024_0_9216 : ∀ a, (![0, 9216] : Fin 2 → Nat) a + S56x1024.size a ≤ S56x65536.size a
  inb_S64x56x512_S1x56x512_10_0_0 : ∀ a, (![10, 0, 0] : Fin 3 → Nat) a + S1x56x512.size a ≤ S64x56x512.size a
  inb_S56x65536_S56x1024_0_10240 : ∀ a, (![0, 10240] : Fin 2 → Nat) a + S56x1024.size a ≤ S56x65536.size a
  inb_S64x56x512_S1x56x512_11_0_0 : ∀ a, (![11, 0, 0] : Fin 3 → Nat) a + S1x56x512.size a ≤ S64x56x512.size a
  inb_S56x65536_S56x1024_0_11264 : ∀ a, (![0, 11264] : Fin 2 → Nat) a + S56x1024.size a ≤ S56x65536.size a
  inb_S64x56x512_S1x56x512_12_0_0 : ∀ a, (![12, 0, 0] : Fin 3 → Nat) a + S1x56x512.size a ≤ S64x56x512.size a
  inb_S56x65536_S56x1024_0_12288 : ∀ a, (![0, 12288] : Fin 2 → Nat) a + S56x1024.size a ≤ S56x65536.size a
  inb_S64x56x512_S1x56x512_13_0_0 : ∀ a, (![13, 0, 0] : Fin 3 → Nat) a + S1x56x512.size a ≤ S64x56x512.size a
  inb_S56x65536_S56x1024_0_13312 : ∀ a, (![0, 13312] : Fin 2 → Nat) a + S56x1024.size a ≤ S56x65536.size a
  inb_S64x56x512_S1x56x512_14_0_0 : ∀ a, (![14, 0, 0] : Fin 3 → Nat) a + S1x56x512.size a ≤ S64x56x512.size a
  inb_S56x65536_S56x1024_0_14336 : ∀ a, (![0, 14336] : Fin 2 → Nat) a + S56x1024.size a ≤ S56x65536.size a
  inb_S64x56x512_S1x56x512_15_0_0 : ∀ a, (![15, 0, 0] : Fin 3 → Nat) a + S1x56x512.size a ≤ S64x56x512.size a
  inb_S56x65536_S56x1024_0_15360 : ∀ a, (![0, 15360] : Fin 2 → Nat) a + S56x1024.size a ≤ S56x65536.size a
  inb_S64x56x512_S1x56x512_16_0_0 : ∀ a, (![16, 0, 0] : Fin 3 → Nat) a + S1x56x512.size a ≤ S64x56x512.size a
  inb_S56x65536_S56x1024_0_16384 : ∀ a, (![0, 16384] : Fin 2 → Nat) a + S56x1024.size a ≤ S56x65536.size a
  inb_S64x56x512_S1x56x512_17_0_0 : ∀ a, (![17, 0, 0] : Fin 3 → Nat) a + S1x56x512.size a ≤ S64x56x512.size a
  inb_S56x65536_S56x1024_0_17408 : ∀ a, (![0, 17408] : Fin 2 → Nat) a + S56x1024.size a ≤ S56x65536.size a
  inb_S64x56x512_S1x56x512_18_0_0 : ∀ a, (![18, 0, 0] : Fin 3 → Nat) a + S1x56x512.size a ≤ S64x56x512.size a
  inb_S56x65536_S56x1024_0_18432 : ∀ a, (![0, 18432] : Fin 2 → Nat) a + S56x1024.size a ≤ S56x65536.size a
  inb_S64x56x512_S1x56x512_19_0_0 : ∀ a, (![19, 0, 0] : Fin 3 → Nat) a + S1x56x512.size a ≤ S64x56x512.size a
  inb_S56x65536_S56x1024_0_19456 : ∀ a, (![0, 19456] : Fin 2 → Nat) a + S56x1024.size a ≤ S56x65536.size a
  inb_S64x56x512_S1x56x512_20_0_0 : ∀ a, (![20, 0, 0] : Fin 3 → Nat) a + S1x56x512.size a ≤ S64x56x512.size a
  inb_S56x65536_S56x1024_0_20480 : ∀ a, (![0, 20480] : Fin 2 → Nat) a + S56x1024.size a ≤ S56x65536.size a
  inb_S64x56x512_S1x56x512_21_0_0 : ∀ a, (![21, 0, 0] : Fin 3 → Nat) a + S1x56x512.size a ≤ S64x56x512.size a
  inb_S56x65536_S56x1024_0_21504 : ∀ a, (![0, 21504] : Fin 2 → Nat) a + S56x1024.size a ≤ S56x65536.size a
  inb_S64x56x512_S1x56x512_22_0_0 : ∀ a, (![22, 0, 0] : Fin 3 → Nat) a + S1x56x512.size a ≤ S64x56x512.size a
  inb_S56x65536_S56x1024_0_22528 : ∀ a, (![0, 22528] : Fin 2 → Nat) a + S56x1024.size a ≤ S56x65536.size a
  inb_S64x56x512_S1x56x512_23_0_0 : ∀ a, (![23, 0, 0] : Fin 3 → Nat) a + S1x56x512.size a ≤ S64x56x512.size a
  inb_S56x65536_S56x1024_0_23552 : ∀ a, (![0, 23552] : Fin 2 → Nat) a + S56x1024.size a ≤ S56x65536.size a
  inb_S64x56x512_S1x56x512_24_0_0 : ∀ a, (![24, 0, 0] : Fin 3 → Nat) a + S1x56x512.size a ≤ S64x56x512.size a
  inb_S56x65536_S56x1024_0_24576 : ∀ a, (![0, 24576] : Fin 2 → Nat) a + S56x1024.size a ≤ S56x65536.size a
  inb_S64x56x512_S1x56x512_25_0_0 : ∀ a, (![25, 0, 0] : Fin 3 → Nat) a + S1x56x512.size a ≤ S64x56x512.size a
  inb_S56x65536_S56x1024_0_25600 : ∀ a, (![0, 25600] : Fin 2 → Nat) a + S56x1024.size a ≤ S56x65536.size a
  inb_S64x56x512_S1x56x512_26_0_0 : ∀ a, (![26, 0, 0] : Fin 3 → Nat) a + S1x56x512.size a ≤ S64x56x512.size a
  inb_S56x65536_S56x1024_0_26624 : ∀ a, (![0, 26624] : Fin 2 → Nat) a + S56x1024.size a ≤ S56x65536.size a
  inb_S64x56x512_S1x56x512_27_0_0 : ∀ a, (![27, 0, 0] : Fin 3 → Nat) a + S1x56x512.size a ≤ S64x56x512.size a
  inb_S56x65536_S56x1024_0_27648 : ∀ a, (![0, 27648] : Fin 2 → Nat) a + S56x1024.size a ≤ S56x65536.size a
  inb_S64x56x512_S1x56x512_28_0_0 : ∀ a, (![28, 0, 0] : Fin 3 → Nat) a + S1x56x512.size a ≤ S64x56x512.size a
  inb_S56x65536_S56x1024_0_28672 : ∀ a, (![0, 28672] : Fin 2 → Nat) a + S56x1024.size a ≤ S56x65536.size a
  inb_S64x56x512_S1x56x512_29_0_0 : ∀ a, (![29, 0, 0] : Fin 3 → Nat) a + S1x56x512.size a ≤ S64x56x512.size a
  inb_S56x65536_S56x1024_0_29696 : ∀ a, (![0, 29696] : Fin 2 → Nat) a + S56x1024.size a ≤ S56x65536.size a
  inb_S64x56x512_S1x56x512_30_0_0 : ∀ a, (![30, 0, 0] : Fin 3 → Nat) a + S1x56x512.size a ≤ S64x56x512.size a
  inb_S56x65536_S56x1024_0_30720 : ∀ a, (![0, 30720] : Fin 2 → Nat) a + S56x1024.size a ≤ S56x65536.size a
  inb_S64x56x512_S1x56x512_31_0_0 : ∀ a, (![31, 0, 0] : Fin 3 → Nat) a + S1x56x512.size a ≤ S64x56x512.size a
  inb_S56x65536_S56x1024_0_31744 : ∀ a, (![0, 31744] : Fin 2 → Nat) a + S56x1024.size a ≤ S56x65536.size a
  inb_S64x56x512_S1x56x512_32_0_0 : ∀ a, (![32, 0, 0] : Fin 3 → Nat) a + S1x56x512.size a ≤ S64x56x512.size a
  inb_S56x65536_S56x1024_0_32768 : ∀ a, (![0, 32768] : Fin 2 → Nat) a + S56x1024.size a ≤ S56x65536.size a
  inb_S64x56x512_S1x56x512_33_0_0 : ∀ a, (![33, 0, 0] : Fin 3 → Nat) a + S1x56x512.size a ≤ S64x56x512.size a
  inb_S56x65536_S56x1024_0_33792 : ∀ a, (![0, 33792] : Fin 2 → Nat) a + S56x1024.size a ≤ S56x65536.size a
  inb_S64x56x512_S1x56x512_34_0_0 : ∀ a, (![34, 0, 0] : Fin 3 → Nat) a + S1x56x512.size a ≤ S64x56x512.size a
  inb_S56x65536_S56x1024_0_34816 : ∀ a, (![0, 34816] : Fin 2 → Nat) a + S56x1024.size a ≤ S56x65536.size a
  inb_S64x56x512_S1x56x512_35_0_0 : ∀ a, (![35, 0, 0] : Fin 3 → Nat) a + S1x56x512.size a ≤ S64x56x512.size a
  inb_S56x65536_S56x1024_0_35840 : ∀ a, (![0, 35840] : Fin 2 → Nat) a + S56x1024.size a ≤ S56x65536.size a
  inb_S64x56x512_S1x56x512_36_0_0 : ∀ a, (![36, 0, 0] : Fin 3 → Nat) a + S1x56x512.size a ≤ S64x56x512.size a
  inb_S56x65536_S56x1024_0_36864 : ∀ a, (![0, 36864] : Fin 2 → Nat) a + S56x1024.size a ≤ S56x65536.size a
  inb_S64x56x512_S1x56x512_37_0_0 : ∀ a, (![37, 0, 0] : Fin 3 → Nat) a + S1x56x512.size a ≤ S64x56x512.size a
  inb_S56x65536_S56x1024_0_37888 : ∀ a, (![0, 37888] : Fin 2 → Nat) a + S56x1024.size a ≤ S56x65536.size a
  inb_S64x56x512_S1x56x512_38_0_0 : ∀ a, (![38, 0, 0] : Fin 3 → Nat) a + S1x56x512.size a ≤ S64x56x512.size a
  inb_S56x65536_S56x1024_0_38912 : ∀ a, (![0, 38912] : Fin 2 → Nat) a + S56x1024.size a ≤ S56x65536.size a
  inb_S64x56x512_S1x56x512_39_0_0 : ∀ a, (![39, 0, 0] : Fin 3 → Nat) a + S1x56x512.size a ≤ S64x56x512.size a
  inb_S56x65536_S56x1024_0_39936 : ∀ a, (![0, 39936] : Fin 2 → Nat) a + S56x1024.size a ≤ S56x65536.size a
  inb_S64x56x512_S1x56x512_40_0_0 : ∀ a, (![40, 0, 0] : Fin 3 → Nat) a + S1x56x512.size a ≤ S64x56x512.size a
  inb_S56x65536_S56x1024_0_40960 : ∀ a, (![0, 40960] : Fin 2 → Nat) a + S56x1024.size a ≤ S56x65536.size a
  inb_S64x56x512_S1x56x512_41_0_0 : ∀ a, (![41, 0, 0] : Fin 3 → Nat) a + S1x56x512.size a ≤ S64x56x512.size a
  inb_S56x65536_S56x1024_0_41984 : ∀ a, (![0, 41984] : Fin 2 → Nat) a + S56x1024.size a ≤ S56x65536.size a
  inb_S64x56x512_S1x56x512_42_0_0 : ∀ a, (![42, 0, 0] : Fin 3 → Nat) a + S1x56x512.size a ≤ S64x56x512.size a
  inb_S56x65536_S56x1024_0_43008 : ∀ a, (![0, 43008] : Fin 2 → Nat) a + S56x1024.size a ≤ S56x65536.size a
  inb_S64x56x512_S1x56x512_43_0_0 : ∀ a, (![43, 0, 0] : Fin 3 → Nat) a + S1x56x512.size a ≤ S64x56x512.size a
  inb_S56x65536_S56x1024_0_44032 : ∀ a, (![0, 44032] : Fin 2 → Nat) a + S56x1024.size a ≤ S56x65536.size a
  inb_S64x56x512_S1x56x512_44_0_0 : ∀ a, (![44, 0, 0] : Fin 3 → Nat) a + S1x56x512.size a ≤ S64x56x512.size a
  inb_S56x65536_S56x1024_0_45056 : ∀ a, (![0, 45056] : Fin 2 → Nat) a + S56x1024.size a ≤ S56x65536.size a
  inb_S64x56x512_S1x56x512_45_0_0 : ∀ a, (![45, 0, 0] : Fin 3 → Nat) a + S1x56x512.size a ≤ S64x56x512.size a
  inb_S56x65536_S56x1024_0_46080 : ∀ a, (![0, 46080] : Fin 2 → Nat) a + S56x1024.size a ≤ S56x65536.size a
  inb_S64x56x512_S1x56x512_46_0_0 : ∀ a, (![46, 0, 0] : Fin 3 → Nat) a + S1x56x512.size a ≤ S64x56x512.size a
  inb_S56x65536_S56x1024_0_47104 : ∀ a, (![0, 47104] : Fin 2 → Nat) a + S56x1024.size a ≤ S56x65536.size a
  inb_S64x56x512_S1x56x512_47_0_0 : ∀ a, (![47, 0, 0] : Fin 3 → Nat) a + S1x56x512.size a ≤ S64x56x512.size a
  inb_S56x65536_S56x1024_0_48128 : ∀ a, (![0, 48128] : Fin 2 → Nat) a + S56x1024.size a ≤ S56x65536.size a
  inb_S64x56x512_S1x56x512_48_0_0 : ∀ a, (![48, 0, 0] : Fin 3 → Nat) a + S1x56x512.size a ≤ S64x56x512.size a
  inb_S56x65536_S56x1024_0_49152 : ∀ a, (![0, 49152] : Fin 2 → Nat) a + S56x1024.size a ≤ S56x65536.size a
  inb_S64x56x512_S1x56x512_49_0_0 : ∀ a, (![49, 0, 0] : Fin 3 → Nat) a + S1x56x512.size a ≤ S64x56x512.size a
  inb_S56x65536_S56x1024_0_50176 : ∀ a, (![0, 50176] : Fin 2 → Nat) a + S56x1024.size a ≤ S56x65536.size a
  inb_S64x56x512_S1x56x512_50_0_0 : ∀ a, (![50, 0, 0] : Fin 3 → Nat) a + S1x56x512.size a ≤ S64x56x512.size a
  inb_S56x65536_S56x1024_0_51200 : ∀ a, (![0, 51200] : Fin 2 → Nat) a + S56x1024.size a ≤ S56x65536.size a
  inb_S64x56x512_S1x56x512_51_0_0 : ∀ a, (![51, 0, 0] : Fin 3 → Nat) a + S1x56x512.size a ≤ S64x56x512.size a
  inb_S56x65536_S56x1024_0_52224 : ∀ a, (![0, 52224] : Fin 2 → Nat) a + S56x1024.size a ≤ S56x65536.size a
  inb_S64x56x512_S1x56x512_52_0_0 : ∀ a, (![52, 0, 0] : Fin 3 → Nat) a + S1x56x512.size a ≤ S64x56x512.size a
  inb_S56x65536_S56x1024_0_53248 : ∀ a, (![0, 53248] : Fin 2 → Nat) a + S56x1024.size a ≤ S56x65536.size a
  inb_S64x56x512_S1x56x512_53_0_0 : ∀ a, (![53, 0, 0] : Fin 3 → Nat) a + S1x56x512.size a ≤ S64x56x512.size a
  inb_S56x65536_S56x1024_0_54272 : ∀ a, (![0, 54272] : Fin 2 → Nat) a + S56x1024.size a ≤ S56x65536.size a
  inb_S64x56x512_S1x56x512_54_0_0 : ∀ a, (![54, 0, 0] : Fin 3 → Nat) a + S1x56x512.size a ≤ S64x56x512.size a
  inb_S56x65536_S56x1024_0_55296 : ∀ a, (![0, 55296] : Fin 2 → Nat) a + S56x1024.size a ≤ S56x65536.size a
  inb_S64x56x512_S1x56x512_55_0_0 : ∀ a, (![55, 0, 0] : Fin 3 → Nat) a + S1x56x512.size a ≤ S64x56x512.size a
  inb_S56x65536_S56x1024_0_56320 : ∀ a, (![0, 56320] : Fin 2 → Nat) a + S56x1024.size a ≤ S56x65536.size a
  inb_S64x56x512_S1x56x512_56_0_0 : ∀ a, (![56, 0, 0] : Fin 3 → Nat) a + S1x56x512.size a ≤ S64x56x512.size a
  inb_S56x65536_S56x1024_0_57344 : ∀ a, (![0, 57344] : Fin 2 → Nat) a + S56x1024.size a ≤ S56x65536.size a
  inb_S64x56x512_S1x56x512_57_0_0 : ∀ a, (![57, 0, 0] : Fin 3 → Nat) a + S1x56x512.size a ≤ S64x56x512.size a
  inb_S56x65536_S56x1024_0_58368 : ∀ a, (![0, 58368] : Fin 2 → Nat) a + S56x1024.size a ≤ S56x65536.size a
  inb_S64x56x512_S1x56x512_58_0_0 : ∀ a, (![58, 0, 0] : Fin 3 → Nat) a + S1x56x512.size a ≤ S64x56x512.size a
  inb_S56x65536_S56x1024_0_59392 : ∀ a, (![0, 59392] : Fin 2 → Nat) a + S56x1024.size a ≤ S56x65536.size a
  inb_S64x56x512_S1x56x512_59_0_0 : ∀ a, (![59, 0, 0] : Fin 3 → Nat) a + S1x56x512.size a ≤ S64x56x512.size a
  inb_S56x65536_S56x1024_0_60416 : ∀ a, (![0, 60416] : Fin 2 → Nat) a + S56x1024.size a ≤ S56x65536.size a
  inb_S64x56x512_S1x56x512_60_0_0 : ∀ a, (![60, 0, 0] : Fin 3 → Nat) a + S1x56x512.size a ≤ S64x56x512.size a
  inb_S56x65536_S56x1024_0_61440 : ∀ a, (![0, 61440] : Fin 2 → Nat) a + S56x1024.size a ≤ S56x65536.size a
  inb_S64x56x512_S1x56x512_61_0_0 : ∀ a, (![61, 0, 0] : Fin 3 → Nat) a + S1x56x512.size a ≤ S64x56x512.size a
  inb_S56x65536_S56x1024_0_62464 : ∀ a, (![0, 62464] : Fin 2 → Nat) a + S56x1024.size a ≤ S56x65536.size a
  inb_S64x56x512_S1x56x512_62_0_0 : ∀ a, (![62, 0, 0] : Fin 3 → Nat) a + S1x56x512.size a ≤ S64x56x512.size a
  inb_S56x65536_S56x1024_0_63488 : ∀ a, (![0, 63488] : Fin 2 → Nat) a + S56x1024.size a ≤ S56x65536.size a
  inb_S64x56x512_S1x56x512_63_0_0 : ∀ a, (![63, 0, 0] : Fin 3 → Nat) a + S1x56x512.size a ≤ S64x56x512.size a
  inb_S56x65536_S56x1024_0_64512 : ∀ a, (![0, 64512] : Fin 2 → Nat) a + S56x1024.size a ≤ S56x65536.size a
  dot_S56x512_S512x1024_S56x1024_1_0_0_1_n_n_wf : DotDims.WF S56x512 S512x1024 S56x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x56x512.size a < S64x512x512.size a
  hwx0_0 : ∀ i : grid0.Coords, EltTy.bits .f32 = 32 ∨ (Rect.unit (s := S64x512x512) (fun a => cc0_transform_0 i a * S64x56x512.size a) (fun a => (Pipeline.Clip.of (cc0_transform_0 i a) (S64x56x512.size a) (S64x512x512.size a)).extent (S64x56x512.size a)) fun a => Pipeline.Clip.inb (Pipeline.Clip.ok_of (hstart0_0 i a))).WholeWords (EltTy.packing .f32)
  hwxs0_0 : ∀ i : grid0.Coords, EltTy.bits .f32 = 32 ∨ (Rect.unit (s := S64x56x512) (fun _ => 0) (fun a => (Pipeline.Clip.of (cc0_transform_0 i a) (S64x56x512.size a) (S64x512x512.size a)).extent (S64x56x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S56x65536.size a < S512x65536.size a
  hwx0_3 : ∀ i : grid0.Coords, EltTy.bits .f32 = 32 ∨ (Rect.unit (s := S512x65536) (fun a => cc0_transform_3 i a * S56x65536.size a) (fun a => (Pipeline.Clip.of (cc0_transform_3 i a) (S56x65536.size a) (S512x65536.size a)).extent (S56x65536.size a)) fun a => Pipeline.Clip.inb (Pipeline.Clip.ok_of (hstart0_3 i a))).WholeWords (EltTy.packing .f32)
  hwxs0_3 : ∀ i : grid0.Coords, EltTy.bits .f32 = 32 ∨ (Rect.unit (s := S56x65536) (fun _ => 0) (fun a => (Pipeline.Clip.of (cc0_transform_3 i a) (S56x65536.size a) (S512x65536.size a)).extent (S56x65536.size a)) fun a => (Nat.zero_add _).trans_le (Pipeline.Clip.extent_le (Pipeline.Clip.ok_of (hstart0_3 i a)))).WholeWords (EltTy.packing .f32)

variable [Facts₀]

def dot_S56x512_S512x1024_S56x1024_1_0_0_1_n_n : DotDims S56x512 S512x1024 S56x1024 where
  lhsContracting := [1]
  rhsContracting := [0]
  lhsNonContracting := [0]
  rhsNonContracting := [1]
  lhsBatch := []
  rhsBatch := []
  wf := dot_S56x512_S512x1024_S56x1024_1_0_0_1_n_n_wf

abbrev win0_0 : Pipeline.Window sig grid0 :=
  Pipeline.Window.ofSpecClip (Memref.whole main_arg0) S64x56x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_call0_v0) S56x65536.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The function both programs compute, over the extended reals.

  Every token (batch row `b`, time step `t`) of the activations `x` ([64, 512, 512]) is a vector of 512 features; it is
  mapped by the affine map `v ↦ v · w + bias` (`w` [512, 1024], `bias` [1, 1024]) to 1024 output features, and the results
  are laid out time-major: `out[t, b, d] = ∑ k, x[b, t, k] · w[k, d] + bias[0, d]`. The reference first writes the same
  numbers into a [512, 65536] array whose column `1024·b + d` holds feature `d` of batch row `b`, and reshapes it.
-/
import Idealize.ShloMosaic.PureOps.Ideal
import Idealize.ShloMosaic.Lib.ValueIdx

noncomputable section

namespace Cert.Spec

open Idealize.ShloMosaic Idealize.ShloMosaic.ValueIdx

/-- One output feature of one token: row `r` of slab `b` of a [nb, nr, 512] array of activations against column `d` of
    the weights, plus the bias at `d`. -/
def proj {nb nr : Nat} (X : (⟨3, ![nb, nr, 512]⟩ : Shape).Idx → EReal) (W : (⟨2, ![512, 1024]⟩ : Shape).Idx → EReal)
    (B : (⟨2, ![1, 1024]⟩ : Shape).Idx → EReal) (b : Fin nb) (r : Fin nr) (d : Fin 1024) : EReal :=
  (∑ k : Fin 512, X (ix3 b r k) * W (ix2 k d)) + B (ix2 (0 : Fin 1) d)

/-- It depends on the three coordinates through their values only. -/
theorem proj_congr {nb nr : Nat} (X : (⟨3, ![nb, nr, 512]⟩ : Shape).Idx → EReal) (W : (⟨2, ![512, 1024]⟩ : Shape).Idx → EReal)
    (B : (⟨2, ![1, 1024]⟩ : Shape).Idx → EReal) {b b' : Fin nb} {r r' : Fin nr} {d d' : Fin 1024}
    (hb : b.val = b'.val) (hr : r.val = r'.val) (hd : d.val = d'.val) : proj X W B b r d = proj X W B b' r' d' := by
  obtain rfl := Fin.ext hb; obtain rfl := Fin.ext hr; obtain rfl := Fin.ext hd; rfl

/-- The result, time-major: entry (t, b, d) is feature `d` of token (b, t). -/
def tokVal (x : (⟨3, ![64, 512, 512]⟩ : Shape).Idx → EReal) (w : (⟨2, ![512, 1024]⟩ : Shape).Idx → EReal)
    (bias : (⟨2, ![1, 1024]⟩ : Shape).Idx → EReal) : (⟨3, ![512, 64, 1024]⟩ : Shape).Idx → EReal :=
  fun i => proj x w bias (⟨(i 1).val, (i 1).isLt⟩ : Fin 64) (⟨(i 0).val, (i 0).isLt⟩ : Fin 512) (⟨(i 2).val, (i 2).isLt⟩ : Fin 1024)

theorem div_lt_64 {j : Nat} (h : j < 65536) : j / 1024 < 64 := by omega

/-- The same numbers with batch row and feature folded into one axis: column `j` is feature `j % 1024` of batch row
    `j / 1024`. -/
def flatVal (x : (⟨3, ![64, 512, 512]⟩ : Shape).Idx → EReal) (w : (⟨2, ![512, 1024]⟩ : Shape).Idx → EReal)
    (bias : (⟨2, ![1, 1024]⟩ : Shape).Idx → EReal) : (⟨2, ![512, 65536]⟩ : Shape).Idx → EReal :=
  fun i => proj x w bias (⟨(i 1).val / 1024, div_lt_64 (i 1).isLt⟩ : Fin 64) (⟨(i 0).val, (i 0).isLt⟩ : Fin 512)
    (⟨(i 1).val % 1024, Nat.mod_lt _ (by decide)⟩ : Fin 1024)

end Cert.Spec

end
-- ==== Proof.KerPay.lean ====
/-
  The kernel body's arithmetic, read entry by entry over the extended reals.

  The body takes a [16, 128, 512] block of activations (16 batch rows, 128 time steps), swaps the first two axes so that
  time comes first, flattens (time, batch) into 2048 rows, multiplies by the [512, 1024] weights, adds the bias row to
  every row, and unflattens the 2048 rows back into (time, batch). The changes of float format on the way are the identity
  on the extended reals. So entry (tt, bb, d) of what it stores is `∑ k, X[bb, tt, k] · W[k, d] + B[0, d]`: row
  `16·tt + bb` of the flattened product is token (bb, tt).
-/
import proofs.«139139_g2000506491249462_pallasbulk_655_8_alg».proof.Proof.Gen.KernelIdeal.Skeleton
import proofs.«139139_g2000506491249462_pallasbulk_655_8_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx

/-! ## The matrix product's operand indices -/

theorem lhs_row (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl

theorem lhs_col (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q

theorem rhs_row (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q

theorem rhs_col (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-! ## The flattened row of a (time, batch) pair -/

/-- Row `16·tt + bb` of the 2048 flattened rows. -/
def flatRow (tt : Fin 128) (bb : Fin 16) : Fin 2048 :=
  ⟨tt.val * 16 + bb.val, by have := tt.isLt; have := bb.isLt; omega⟩

/-- Row `flatRow tt bb`, feature `k` of the swapped and flattened activations is entry (bb, tt, k) of the block. -/
theorem lhs_apply (X : FVec Ideal S16x128x512 .f32) (tt : Fin 128) (bb : Fin 16) (k : Fin 512) :
    shapeCast S2048x512 (transpose S128x16x512 [1, 0, 2] (truncf .bf16 X bitsLt_bf16_f32) transposes_S16x128x512_p1_0_2_S128x16x512)
        shapeCasts_S128x16x512_S2048x512 (ix2 (flatRow tt bb) k)
      = X (ix3 bb tt k) := by
  refine (shapeCast_apply _ shapeCasts_S128x16x512_S2048x512 (ix2 (flatRow tt bb) k) (ix3 tt bb k) ?_).trans ?_
  · rw [Shape.rowMajor_val_two, Shape.rowMajor_val_three]
    show (tt.val * 16 + bb.val) * 512 + k.val = (tt.val * 16 + bb.val) * 512 + k.val
    rfl
  · refine (transpose_apply [1, 0, 2] _ transposes_S16x128x512_p1_0_2_S128x16x512 (ix3 tt bb k) (ix3 bb tt k) fun b => ?_).trans rfl
    match b with
    | ⟨0, _⟩ => rfl
    | ⟨1, _⟩ => rfl
    | ⟨2, _⟩ => rfl

/-! ## The payload at an entry -/

/-- Entry (tt, bb, d) of what the body stores: feature `d` of token (bb, tt) of the block. -/
theorem pay_apply (X : FVec Ideal S16x128x512 .f32) (W : FVec Ideal S512x1024 .f32) (B : FVec Ideal S1x1024 .f32)
    (tt : Fin 128) (bb : Fin 16) (d : Fin 1024) :
    k0_pay1 (F := Ideal) X W B (ix3 tt bb d) = proj X W B bb tt d := by
  unfold k0_pay1 proj
  refine (shapeCast_apply _ shapeCasts_S2048x1024_S128x16x1024 (ix3 tt bb d) (ix2 (flatRow tt bb) d) ?_).trans ?_
  · rw [Shape.rowMajor_val_two, Shape.rowMajor_val_three]
    show (tt.val * 16 + bb.val) * 1024 + d.val = (tt.val * 16 + bb.val) * 1024 + d.val
    rfl
  show FloatOps.matmul dot_S2048x512_S512x1024_S2048x1024_1_0_0_1_n_n none
        (shapeCast S2048x512 (transpose S128x16x512 [1, 0, 2] (truncf .bf16 X bitsLt_bf16_f32) transposes_S16x128x512_p1_0_2_S128x16x512)
          shapeCasts_S128x16x512_S2048x512)
        (truncf .bf16 W bitsLt_bf16_f32) (constant S2048x1024 .f32 0x00000000#32) (ix2 (flatRow tt bb) d)
      + broadcastTo S2048x1024 B broadcasts_S1x1024_S2048x1024 (ix2 (flatRow tt bb) d) = _
  rw [Ideal.matmul_constant_zero_apply,
    ← Equiv.sum_comp (contrEquiv1 dot_S2048x512_S512x1024_S2048x1024_1_0_0_1_n_n 512 rfl rfl).symm]
  congr 1
  · refine Finset.sum_congr rfl fun k _ => ?_
    have hk := contrEquiv1_symm_val dot_S2048x512_S512x1024_S2048x1024_1_0_0_1_n_n 512 rfl rfl k
    have el : dot_S2048x512_S512x1024_S2048x1024_1_0_0_1_n_n.lhsIdx (ix2 (flatRow tt bb) d)
        ((contrEquiv1 dot_S2048x512_S512x1024_S2048x1024_1_0_0_1_n_n 512 rfl rfl).symm k) = ix2 (flatRow tt bb) k :=
      funext fun a => Fin.ext (by
        match a with
        | ⟨0, _⟩ => exact lhs_row _ _
        | ⟨1, _⟩ => exact (lhs_col _ _).trans hk)
    have er : dot_S2048x512_S512x1024_S2048x1024_1_0_0_1_n_n.rhsIdx (ix2 (flatRow tt bb) d)
        ((contrEquiv1 dot_S2048x512_S512x1024_S2048x1024_1_0_0_1_n_n 512 rfl rfl).symm k) = ix2 k d :=
      funext fun a => Fin.ext (by
        match a with
        | ⟨0, _⟩ => exact (rhs_row _ _).trans hk
        | ⟨1, _⟩ => exact rhs_col _ _)
    rw [el, er]
    congr 1
    exact lhs_apply X tt bb k
  · exact broadcastTo_apply B broadcasts_S1x1024_S2048x1024 (ix2 (flatRow tt bb) d) (ix2 (0 : Fin 1) d) fun a => by
      match a with
      | ⟨0, _⟩ => rfl
      | ⟨1, _⟩ => rfl

end Cert.KernelIdeal.Hand

end
-- ==== Proof.KerValue.lean ====
/-
  The kernel's result array, from its blocks.

  Grid point (bi, ti) reads block (bi, ti, 0) of the activations (batch rows 16·bi ‥, time steps 128·ti ‥) and the whole
  weights and bias, and writes block (ti, bi, 0) of the result (time steps 128·ti ‥, batch rows 16·bi ‥). Entry
  (tt, bb, d) of what it writes is feature `d` of token (bb, tt) of its activations block, that is of token
  (16·bi + bb, 128·ti + tt) of the whole array: the block it writes is the block of ONE function of the argument arrays,
  `tokVal`. The 4 × 4 result blocks tile the [512, 64, 1024] array, so the array ends holding `tokVal`.
-/
import proofs.«139139_g2000506491249462_pallasbulk_655_8_alg».proof.Proof.Gen.KernelIdeal.Value
import proofs.«139139_g2000506491249462_pallasbulk_655_8_alg».proof.Proof.KerPay

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result as a function of the argument arrays as the region finds them. -/
def resultOf (c : Dev nD) : S512x64x1024.Idx → EReal :=
  tokVal (V m c main_arg0) (V m c main_arg1) (V m c main_arg2)

/-- The index maps over the 16 grid points: the activations' block moves with the result's with the first two axes
    swapped; the weights' and the bias's stay put. -/
theorem idx_facts : ∀ t : Fin cfg0.N,
    win0_0.index t (0 : Fin 3) = win0_3.index t (1 : Fin 3) ∧ win0_0.index t (1 : Fin 3) = win0_3.index t (0 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 3 :=
  (by decide +kernel : ∀ t : Fin grid0.N, _)

/-- Every one of the 4 × 4 result blocks is some grid point's. -/
theorem idx_onto : ∀ (q0 q1 : Fin 4), ∃ t : Fin cfg0.N, win0_3.index t = ![q0.val, q1.val, 0] :=
  (by decide +kernel : ∀ (q0 q1 : Fin 4), ∃ t : Fin grid0.N, win0_3.index t = ![q0.val, q1.val, 0])

/-- What grid point `t` writes back is block `t` of `tokVal` of the argument arrays. -/
theorem flushed_eq (c : Dev nD) (t : Fin cfg0.N) :
    (dats m 0 c).flushed 3 t = ((cfg0.win 3).blk t).view.read (Elt Ideal) (resultOf m c) := by
  rw [Value.flushed3]
  unfold out0_3
  rw [View.canon_unit_zero zeros3]
  simp only [View.ld_unit_zero (S := S16x128x512) zeros3, View.ld_unit_zero (S := S512x1024) zeros2,
    View.ld_unit_zero (S := S1x1024) zeros2]
  obtain ⟨e0, e1, e2, e3, e4, e5, e6, e7, e8, e9⟩ := idx_facts t
  funext j
  obtain ⟨tt, bb, d, rfl⟩ : ∃ (tt : Fin 128) (bb : Fin 16) (d : Fin 1024), j = ix3 tt bb d := ⟨j 0, j 1, j 2, eq_ix3 j⟩
  refine (pay_apply (iblk m c 0 t) (iblk m c 1 t) (iblk m c 2 t) tt bb d).trans ?_
  have htt : tt.val < 128 := tt.isLt
  have hbb : bb.val < 16 := bb.isLt
  have hd : d.val < 1024 := d.isLt
  show proj (iblk m c 0 t) (iblk m c 1 t) (iblk m c 2 t) bb tt d
    = tokVal (V m c main_arg0) (V m c main_arg1) (V m c main_arg2) (((cfg0.win 3).blk t).view.emb (ix3 tt bb d))
  unfold tokVal proj
  congr 1
  · refine Finset.sum_congr rfl fun k _ => ?_
    have hk : k.val < 512 := k.isLt
    congr 1
    · show V m c main_arg0 (((cfg0.win 0).blk t).view.emb (ix3 bb tt k)) = V m c main_arg0 _
      refine congrArg _ (funext fun a => Fin.ext ?_)
      match a with
      | ⟨0, _⟩ => show win0_0.index t (0 : Fin 3) * 16 + 1 * bb.val = win0_3.index t (1 : Fin 3) * 16 + 1 * bb.val; omega
      | ⟨1, _⟩ => show win0_0.index t (1 : Fin 3) * 128 + 1 * tt.val = win0_3.index t (0 : Fin 3) * 128 + 1 * tt.val; omega
      | ⟨2, _⟩ => show win0_0.index t (2 : Fin 3) * 512 + 1 * k.val = k.val; omega
    · show V m c main_arg1 (((cfg0.win 1).blk t).view.emb (ix2 k d)) = V m c main_arg1 _
      refine congrArg _ (funext fun a => Fin.ext ?_)
      match a with
      | ⟨0, _⟩ => show win0_1.index t (0 : Fin 2) * 512 + 1 * k.val = k.val; omega
      | ⟨1, _⟩ => show win0_1.index t (1 : Fin 2) * 1024 + 1 * d.val = win0_3.index t (2 : Fin 3) * 1024 + 1 * d.val; omega
  · show V m c main_arg2 (((cfg0.win 2).blk t).view.emb (ix2 (0 : Fin 1) d)) = V m c main_arg2 _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * d.val = win0_3.index t (2 : Fin 3) * 1024 + 1 * d.val; omega

/-- An index of the result array is in point `t`'s block iff each coordinate is in the block's range on its axis. -/
theorem mem_blk (t : Fin cfg0.N) (i : S512x64x1024.Idx) :
    i ∈ ((cfg0.win 3).blk t).view.set ↔ ∀ a : Fin 3, win0_3.index t a * S128x16x1024.size a ≤ (i a).val
      ∧ (i a).val < win0_3.index t a * S128x16x1024.size a + S128x16x1024.size a := by
  show i ∈ ((View.whole main_v0).slice (win0_3.rect t)).set ↔ _
  rw [View.set_slice_whole, Rect.mem_set_unit]
  exact Iff.rfl

/-- The blocks cover the result array: entry (t, b, d) is in block (t / 128, b / 16, 0). -/
theorem cover (i : S512x64x1024.Idx) :
    ∃ t : Fin cfg0.N, (cfg0.win 3).flush t = true ∧ i ∈ ((cfg0.win 3).blk t).view.set := by
  have h0 : (i 0).val < 512 := (i 0).isLt
  have h1 : (i 1).val < 64 := (i 1).isLt
  have h2 : (i 2).val < 1024 := (i 2).isLt
  obtain ⟨t, ht⟩ := idx_onto ⟨(i 0).val / 128, by omega⟩ ⟨(i 1).val / 16, by omega⟩
  have q0 : win0_3.index t (0 : Fin 3) = (i 0).val / 128 := congrFun ht 0
  have q1 : win0_3.index t (1 : Fin 3) = (i 1).val / 16 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 16 ≤ (i 1).val ∧ (i 1).val < win0_3.index t (1 : Fin 3) * 16 + 16; omega
  | ⟨2, _⟩ => show win0_3.index t (2 : Fin 3) * 1024 ≤ (i 2).val ∧ (i 2).val < win0_3.index t (2 : Fin 3) * 1024 + 1024; omega

/-- The result array after the run is `tokVal` of the argument arrays. -/
theorem final (c : Dev nD) : (dats m 0 c).arrAt 3 cfg0.N = resultOf m c :=
  (dats m 0 c).arrAt_eq_of_cover 3 (resultOf m c) (fun t _ => flushed_eq m c t) (cover)

/-- The kernel's run: the result array ends at `tokVal` of the arguments, the arguments unchanged. -/
theorem run : θ_run defs (onTc (τ := τ) (main (F := Ideal))) ⟨m, fun _ => 0, ρ⟩ fun r => ∀ c : Dev nD,
      r.2.mem ((c : Thread nD τ).loc main_v0)
        = tokVal (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefBody.lean ====
/-
  The reference program's kernel body, run once on whole staging buffers.

  The body reads the weight block `w` ([512, 1024]) and the bias row ([1, 1024]) whole, and then, for each of the 64
  batch rows `b` in turn, reads slab `b` of the staged activations (a [1, 56, 512] piece of the [64, 56, 512] buffer),
  multiplies it as a [56, 512] matrix into `w`, adds the bias row to every row, and stores the [56, 1024] result into
  columns `1024·b ‥ 1024·b + 1023` of the [56, 65536] output buffer. The 64 column bands tile the output buffer, so after
  the body the buffer is a function of the three input buffers alone: the overlay of the 64 bands (`outBuf`).
-/
import proofs.«139139_g2000506491249462_pallasbulk_655_8_alg».proof.Proof.Gen.ReferenceIdeal.Frame
import proofs.«139139_g2000506491249462_pallasbulk_655_8_alg».proof.Proof.Gen.ReferenceIdeal.Skeleton
import Idealize.ShloMosaic.Lib.Pipeline.FrameBody
import Idealize.ShloMosaic.Lib.Pipeline.Value
import Idealize.ShloMosaic.Lib.Tactic

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- Slab `b` of the staged activations lies inside the [64, 56, 512] buffer. -/
theorem inb_slab (b : Nat) (hb : b < 64) :
    ∀ a, (![b, 0, 0] : Fin 3 → Nat) a + S1x56x512.size a ≤ S64x56x512.size a := by
  intro a; fin_cases a
  · show b + 1 ≤ 64; omega
  · show 0 + 56 ≤ 56; omega
  · show 0 + 512 ≤ 512; omega

/-- Column band `b` lies inside the [56, 65536] output buffer. -/
theorem inb_band (b : Nat) (hb : b < 64) :
    ∀ a, (![0, 1024 * b] : Fin 2 → Nat) a + S56x1024.size a ≤ S56x65536.size a := by
  intro a; fin_cases a
  · show 0 + 56 ≤ 56; omega
  · show 1024 * b + 1024 ≤ 65536; omega

/-- Slab `b` of the activations' buffer. -/
abbrev slab (b : Nat) (hb : b < 64) : Rect S64x56x512 :=
  Rect.unit (s := S64x56x512) ![b, 0, 0] S1x56x512.size (inb_slab b hb)

/-- Column band `b` of the output buffer. -/
abbrev band (b : Nat) (hb : b < 64) : Rect S56x65536 :=
  Rect.unit (s := S56x65536) ![0, 1024 * b] S56x1024.size (inb_band b hb)

abbrev rW : Rect S512x1024 := Rect.unit (s := S512x1024) ![0, 0] S512x1024.size inb_S512x1024_S512x1024_0_0
abbrev rB : Rect S1x1024 := Rect.unit (s := S1x1024) ![0, 0] S1x1024.size inb_S1x1024_S1x1024_0_0

/-! ## What the body leaves in the output buffer -/

/-- The first `n` stores, last first: store `b` writes, through band `b`, slab `b` times the weights plus the bias. -/
def bands (x0 : Vec F S64x56x512 .f32) (x1 : Vec F S512x1024 .f32) (x2 : Vec F S1x1024 .f32) :
    (n : Nat) → n ≤ 64 → List (View.Piece (Elt F) S56x65536 .f32)
  | 0, _ => []
  | n + 1, h => ⟨band n (by omega), k0_pay1 (View.ld x1 rW) (View.ld x2 rB) (View.ld x0 (slab n (by omega)))⟩
      :: bands x0 x1 x2 n (by omega)

/-- The output buffer after the body: the overlay of all 64 bands. -/
def outBuf (x0 : Vec F S64x56x512 .f32) (x1 : Vec F S512x1024 .f32) (x2 : Vec F S1x1024 .f32) : Vec F S56x65536 .f32 :=
  View.canon (bands x0 x1 x2 64 (Nat.le_refl _))

/-- Band `b` is among the first `n` stores when `b < n`. -/
theorem band_mem (x0 : Vec F S64x56x512 .f32) (x1 : Vec F S512x1024 .f32) (x2 : Vec F S1x1024 .f32) :
    ∀ (n : Nat) (h : n ≤ 64) (b : Nat) (hb : b < n),
      (⟨band b (by omega), k0_pay1 (View.ld x1 rW) (View.ld x2 rB) (View.ld x0 (slab b (by omega)))⟩ :
        View.Piece (Elt F) S56x65536 .f32) ∈ bands x0 x1 x2 n h
  | 0, _, _, hb => absurd hb (Nat.not_lt_zero _)
  | n + 1, h, b, hb => by
    unfold bands
    by_cases e : b = n
    · subst e; exact List.mem_cons_self
    · exact List.mem_cons_of_mem _ (band_mem x0 x1 x2 n (by omega) b (by omega))

/-- Every piece among the first `n` stores is some band `b < n` with its payload. -/
theorem mem_bands (x0 : Vec F S64x56x512 .f32) (x1 : Vec F S512x1024 .f32) (x2 : Vec F S1x1024 .f32) :
    ∀ (n : Nat) (h : n ≤ 64) (p : View.Piece (Elt F) S56x65536 .f32), p ∈ bands x0 x1 x2 n h →
      ∃ (b : Nat) (hb : b < 64), p = ⟨band b hb, k0_pay1 (View.ld x1 rW) (View.ld x2 rB) (View.ld x0 (slab b hb))⟩
  | 0, _, _, hp => by unfold bands at hp; exact absurd hp List.not_mem_nil
  | n + 1, h, p, hp => by
    unfold bands at hp
    rcases List.mem_cons.mp hp with rfl | hp
    · exact ⟨n, by omega, rfl⟩
    · exact mem_bands x0 x1 x2 n (by omega) p hp

/-- The 64 bands cover the output buffer: column `j` lies in band `j / 1024`. -/
theorem bands_cover (x0 : Vec F S64x56x512 .f32) (x1 : Vec F S512x1024 .f32) (x2 : Vec F S1x1024 .f32) (y : S56x65536.Idx) :
    ∃ p ∈ bands x0 x1 x2 64 (Nat.le_refl _), y ∈ p.1.set := by
  have h0 : (y 0).val < 56 := (y 0).isLt
  have h1 : (y 1).val < 65536 := (y 1).isLt
  have hb : (y 1).val / 1024 < 64 := by omega
  refine ⟨_, band_mem x0 x1 x2 64 (Nat.le_refl _) ((y 1).val / 1024) hb, ?_⟩
  rw [Rect.mem_set_unit]
  intro a; fin_cases a
  · show 0 ≤ (y 0).val ∧ (y 0).val < 0 + 56; omega
  · show 1024 * ((y 1).val / 1024) ≤ (y 1).val ∧ (y 1).val < 1024 * ((y 1).val / 1024) + 1024; omega

/-! ## The body's triple -/

set_option maxHeartbeats 4000000 in
/-- The body on whole staging buffers, the three inputs' at read contents `x0`, `x1`, `x2` and the output's at anything,
    runs to the continuation holding the inputs' as they were and the output's at `outBuf x0 x1 x2`. -/
theorem sound_kernel (c : Dev nD) (E : Set ℕ) (i : grid0.Coords) (arg1 : Memref sig .tc .vmem S64x56x512 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S56x65536 .f32) (harg4 : arg4.IsWhole)
    (x0 : Vec F S64x56x512 .f32) (x1 : Vec F S512x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBuf x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bands_cover _ _ _)

end Cert.ReferenceIdeal.Body

end
-- ==== Proof.RefPay.lean ====
/-
  The reference body's arithmetic, read entry by entry over the extended reals.

  One store's payload is slab `b` of the staged activations, seen as a [56, 512] matrix, times the [512, 1024] weights,
  plus the bias row on every row. At entry (r, d) that is `∑ k, X[b, r, k] · W[k, d] + B[0, d]`: the matrix unit's product
  into a zero accumulator is the plain sum over the contracted axis, the shape cast drops the slab's unit axis, and the
  broadcast repeats the one bias row. So the whole output buffer is one function of the three input buffers
  (`bufVal`): column `j` belongs to batch row `j / 1024` and output feature `j % 1024`.
-/
import proofs.«139139_g2000506491249462_pallasbulk_655_8_alg».proof.Proof.RefBody
import proofs.«139139_g2000506491249462_pallasbulk_655_8_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.Body

open Cert.ReferenceIdeal Cert.ReferenceIdeal.Gen Cert.Spec
open Idealize.ShloMosaic Idealize.ShloMosaic.ValueIdx

/-! ## The matrix product's operand indices -/

theorem lhs_row (i : S56x1024.Idx) (q : dot_S56x512_S512x1024_S56x1024_1_0_0_1_n_n.contr.Idx) :
    (dot_S56x512_S512x1024_S56x1024_1_0_0_1_n_n.lhsIdx i q 0).val = (i 0).val := by
  unfold DotDims.lhsIdx
  rw [dif_neg (show ¬(0 : Fin S56x512.rank) ∈ dot_S56x512_S512x1024_S56x1024_1_0_0_1_n_n.lhsBatch by decide),
    dif_pos (show (0 : Fin S56x512.rank) ∈ dot_S56x512_S512x1024_S56x1024_1_0_0_1_n_n.lhsNonContracting by decide)]
  rfl

theorem lhs_col (i : S56x1024.Idx) (q : dot_S56x512_S512x1024_S56x1024_1_0_0_1_n_n.contr.Idx) :
    (dot_S56x512_S512x1024_S56x1024_1_0_0_1_n_n.lhsIdx i q 1).val = (q ⟨0, by decide⟩).val :=
  dot_S56x512_S512x1024_S56x1024_1_0_0_1_n_n.lhsIdx_val_of_single rfl i q

theorem rhs_row (i : S56x1024.Idx) (q : dot_S56x512_S512x1024_S56x1024_1_0_0_1_n_n.contr.Idx) :
    (dot_S56x512_S512x1024_S56x1024_1_0_0_1_n_n.rhsIdx i q 0).val = (q ⟨0, by decide⟩).val :=
  dot_S56x512_S512x1024_S56x1024_1_0_0_1_n_n.rhsIdx_val_of_single rfl i q

theorem rhs_col (i : S56x1024.Idx) (q : dot_S56x512_S512x1024_S56x1024_1_0_0_1_n_n.contr.Idx) :
    (dot_S56x512_S512x1024_S56x1024_1_0_0_1_n_n.rhsIdx i q 1).val = (i 1).val := by
  unfold DotDims.rhsIdx
  rw [dif_neg (show ¬(1 : Fin S512x1024.rank) ∈ dot_S56x512_S512x1024_S56x1024_1_0_0_1_n_n.rhsBatch by decide),
    dif_pos (show (1 : Fin S512x1024.rank) ∈ dot_S56x512_S512x1024_S56x1024_1_0_0_1_n_n.rhsNonContracting by decide)]
  rfl

/-! ## One store's payload at an entry -/

/-- Entry (r, d) of one store's payload: row `r` of the slab against column `d` of the weights, plus the bias at `d`. -/
theorem pay_apply (W : FVec Ideal S512x1024 .f32) (B : FVec Ideal S1x1024 .f32) (X1 : FVec Ideal S1x56x512 .f32)
    (r : Fin 56) (d : Fin 1024) :
    k0_pay1 (F := Ideal) W B X1 (ix2 r d) = proj X1 W B (0 : Fin 1) r d := by
  unfold k0_pay1 proj
  show FloatOps.matmul dot_S56x512_S512x1024_S56x1024_1_0_0_1_n_n none (shapeCast S56x512 X1 shapeCasts_S1x56x512_S56x512) W
        (constant S56x1024 .f32 0x00000000#32) (ix2 r d)
      + broadcastTo S56x1024 B broadcasts_S1x1024_S56x1024 (ix2 r d) = _
  rw [Ideal.matmul_constant_zero_apply,
    ← Equiv.sum_comp (contrEquiv1 dot_S56x512_S512x1024_S56x1024_1_0_0_1_n_n 512 rfl rfl).symm]
  congr 1
  · refine Finset.sum_congr rfl fun k _ => ?_
    have hk := contrEquiv1_symm_val dot_S56x512_S512x1024_S56x1024_1_0_0_1_n_n 512 rfl rfl k
    have el : dot_S56x512_S512x1024_S56x1024_1_0_0_1_n_n.lhsIdx (ix2 r d)
        ((contrEquiv1 dot_S56x512_S512x1024_S56x1024_1_0_0_1_n_n 512 rfl rfl).symm k) = ix2 r k :=
      funext fun a => Fin.ext (by
        match a with
        | ⟨0, _⟩ => exact lhs_row _ _
        | ⟨1, _⟩ => exact (lhs_col _ _).trans hk)
    have er : dot_S56x512_S512x1024_S56x1024_1_0_0_1_n_n.rhsIdx (ix2 r d)
        ((contrEquiv1 dot_S56x512_S512x1024_S56x1024_1_0_0_1_n_n 512 rfl rfl).symm k) = ix2 k d :=
      funext fun a => Fin.ext (by
        match a with
        | ⟨0, _⟩ => exact (rhs_row _ _).trans hk
        | ⟨1, _⟩ => exact rhs_col _ _)
    rw [el, er]
    congr 1
    refine (shapeCast_dropUnit_apply ![56, 512] X1 shapeCasts_S1x56x512_S56x512 (ix2 r k)).trans ?_
    exact congrArg X1 (funext fun a => by
      match a with
      | ⟨0, _⟩ => rfl
      | ⟨1, _⟩ => rfl
      | ⟨2, _⟩ => rfl)
  · exact broadcastTo_apply B broadcasts_S1x1024_S56x1024 (ix2 r d) (ix2 (0 : Fin 1) d) fun a => by
      match a with
      | ⟨0, _⟩ => rfl
      | ⟨1, _⟩ => rfl

/-! ## A band's payload in terms of the whole staged block -/

theorem zeros2 : (![0, 0] : Fin 2 → Nat) = fun _ => 0 := funext fun a => by fin_cases a <;> rfl

/-- Row `r`, feature `k` of slab `b` is entry (b, r, k) of the staged block. -/
theorem slab_emb (b : Nat) (hb : b < 64) (r : Fin 56) (k : Fin 512) :
    (slab b hb).emb (ix3 (0 : Fin 1) r k) = ix3 (⟨b, hb⟩ : Fin 64) r k :=
  funext fun a => Fin.ext (by
    match a with
    | ⟨0, _⟩ => show b + 1 * 0 = b; omega
    | ⟨1, _⟩ => show 0 + 1 * r.val = r.val; omega
    | ⟨2, _⟩ => show 0 + 1 * k.val = k.val; omega)

/-- Store `b`'s payload at (r, d) is feature `d` of row `r` of slab `b`. -/
theorem band_pay (X : FVec Ideal S64x56x512 .f32) (W : FVec Ideal S512x1024 .f32) (B : FVec Ideal S1x1024 .f32)
    (b : Nat) (hb : b < 64) (r : Fin 56) (d : Fin 1024) :
    k0_pay1 (F := Ideal) (View.ld W rW) (View.ld B rB) (View.ld X (slab b hb)) (ix2 r d)
      = proj X W B (⟨b, hb⟩ : Fin 64) r d := by
  rw [pay_apply, View.ld_unit_zero (S := S512x1024) zeros2, View.ld_unit_zero (S := S1x1024) zeros2]
  unfold proj
  congr 1
  refine Finset.sum_congr rfl fun k _ => ?_
  congr 1
  show X ((slab b hb).emb (ix3 (0 : Fin 1) r k)) = _
  rw [slab_emb]

/-! ## The whole output buffer as one function -/

/-- What the output buffer holds after the body, entry by entry: row `r`, column `j` is feature `j % 1024` of row `r` of
    slab `j / 1024`. -/
def bufVal (X : FVec Ideal S64x56x512 .f32) (W : FVec Ideal S512x1024 .f32) (B : FVec Ideal S1x1024 .f32) :
    FVec Ideal S56x65536 .f32 := fun y =>
  proj X W B (⟨(y 1).val / 1024, div_lt_64 (y 1).isLt⟩ : Fin 64) (⟨(y 0).val, (y 0).isLt⟩ : Fin 56)
    (⟨(y 1).val % 1024, Nat.mod_lt _ (by decide)⟩ : Fin 1024)

/-- Under band `b`, at the band's own (r, d), that is feature `d` of row `r` of slab `b`. -/
theorem bufVal_band (X : FVec Ideal S64x56x512 .f32) (W : FVec Ideal S512x1024 .f32) (B : FVec Ideal S1x1024 .f32)
    (b : Nat) (hb : b < 64) (r : Fin 56) (d : Fin 1024) :
    bufVal X W B ((band b hb).emb (ix2 r d)) = proj X W B (⟨b, hb⟩ : Fin 64) r d := by
  have hd : d.val < 1024 := d.isLt
  unfold bufVal
  refine proj_congr X W B ?_ ?_ ?_
  · show (1024 * b + 1 * d.val) / 1024 = b; omega
  · show 0 + 1 * r.val = r.val; omega
  · show (1024 * b + 1 * d.val) % 1024 = d.val; omega

/-- Every store's payload is the buffer function under its band. -/
theorem bands_agree (X : FVec Ideal S64x56x512 .f32) (W : FVec Ideal S512x1024 .f32) (B : FVec Ideal S1x1024 .f32)
    (p : View.Piece (Elt Ideal) S56x65536 .f32) (hp : p ∈ bands (F := Ideal) X W B 64 (Nat.le_refl _))
    (x : p.1.shape.Idx) : p.2 x = bufVal X W B (p.1.emb x) := by
  obtain ⟨b, hb, rfl⟩ := mem_bands X W B 64 (Nat.le_refl _) p hp
  obtain ⟨r, d, rfl⟩ : ∃ (r : Fin 56) (d : Fin 1024), x = ix2 r d := ⟨x 0, x 1, eq_ix2 x⟩
  exact (band_pay X W B b hb r d).trans (bufVal_band X W B b hb r d).symm

end Cert.ReferenceIdeal.Body

end
-- ==== Proof.RefOut.lean ====
/-
  The reference's output buffer after the body is one function of the three input buffers.

  The 64 stores write disjoint column bands that together cover the [56, 65536] buffer, and each store's payload is the
  buffer function `bufVal` under its band; so the overlay of the stores is `bufVal`.
-/
import proofs.«139139_g2000506491249462_pallasbulk_655_8_alg».proof.Proof.RefPay

set_option maxRecDepth 16384

noncomputable section

namespace Cert.ReferenceIdeal.Body

open Cert.ReferenceIdeal Cert.ReferenceIdeal.Gen Cert.Spec
open Idealize.ShloMosaic Idealize.ShloMosaic.ValueIdx

/-- The overlay of the 64 bands is the buffer function. -/
theorem outBuf_eq (X : FVec Ideal S64x56x512 .f32) (W : FVec Ideal S512x1024 .f32) (B : FVec Ideal S1x1024 .f32) :
    outBuf (F := Ideal) X W B = bufVal X W B := by
  funext y
  unfold outBuf
  exact View.canon_apply_of_pieces (bufVal X W B) (bands (F := Ideal) X W B 64 (Nat.le_refl _)) (bands_agree X W B) y
    (bands_cover (F := Ideal) X W B y)

end Cert.ReferenceIdeal.Body

end
-- ==== Proof.RefRun.lean ====
/-
  The reference's run: proof data, the body at every grid point, the frame run.

  The grid has ten points; point `t` stages time steps `56·t ‥ 56·t + 55` of all 64 batch rows. Ten blocks of 56 rows
  overhang the 512 time steps by 48: at the last point only 8 rows lie inside the arrays, the activations' staging buffer
  holds words nothing names on the other 48 rows, and the write-back moves only the 8 rows inside. So the body's contract
  is stated on the rows inside the arrays: there the output buffer is a function of the rows of the activations inside
  the array, because row `r` of every band depends on row `r` of its slab alone. On those rows the buffer is the point's
  block of the flat result `flatVal` of the argument arrays.
-/
import proofs.«139139_g2000506491249462_pallasbulk_655_8_alg».proof.Proof.RefOut
import proofs.«139139_g2000506491249462_pallasbulk_655_8_alg».proof.Proof.Gen.ReferenceIdeal.Frame
import proofs.«139139_g2000506491249462_pallasbulk_655_8_alg».proof.Proof.Gen.ReferenceIdeal.Points
import Idealize.ShloMosaic.Lib.Pipeline.FrameSuffix
import Idealize.ShloMosaic.Lib.Pipeline.Value

set_option maxRecDepth 16384

noncomputable section

namespace Cert.ReferenceIdeal.Body

open Cert.ReferenceIdeal Cert.ReferenceIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The flat result of the argument arrays -/

/-- The [512, 65536] array the region computes, as a function of the argument arrays as the region finds them. -/
def flatOf (c : Dev nD) : S512x65536.Idx → EReal :=
  flatVal (V (F := Ideal) m c main_arg0) (V (F := Ideal) m c main_arg1) (V (F := Ideal) m c main_arg2)

/-! ## The index maps and the cut sizes, over the ten points -/

theorem pt_facts : ∀ t : Fin cfg0.N,
    win0_0.xsize (grid0.coords t) (0 : Fin 3) = 64
    ∧ win0_0.xsize (grid0.coords t) (1 : Fin 3) = win0_3.xsize (grid0.coords t) (0 : Fin 2)
    ∧ win0_0.xsize (grid0.coords t) (2 : Fin 3) = 512
    ∧ win0_3.xsize (grid0.coords t) (1 : Fin 2) = 65536
    ∧ win0_3.xsize (grid0.coords t) (0 : Fin 2) ≤ 56
    ∧ win0_0.index t (0 : Fin 3) = 0 ∧ win0_0.index t (1 : Fin 3) = win0_3.index t (0 : Fin 2)
    ∧ win0_0.index t (2 : Fin 3) = 0 ∧ win0_3.index t (1 : Fin 2) = 0
    ∧ win0_3.index t (0 : Fin 2) * 56 + win0_3.xsize (grid0.coords t) (0 : Fin 2) ≤ 512
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The proof data -/

/-- After the body at point `t`: the activations' buffer holds its block on the rows inside the array (zero elsewhere: a
    filler nothing reads), the weights' and the bias's buffers their blocks, the output's buffer the point's block of the
    flat result on the rows inside the array (zero elsewhere). -/
def dats (_ : Fin 1) (c : Dev nD) : Dat τ (Elt Ideal) Unit ℕ (UR sig nD τ) ℕ cfg0 c where
  A w := V (F := Ideal) m c (Pipeline.arrRef spec0 w)
  after w t := match w with
    | ⟨0, _⟩ => win0_0.fill (grid0.coords t) (fun _ => (0 : EReal)) (iblk (F := Ideal) m c 0 t)
    | ⟨1, _⟩ => iblk (F := Ideal) m c 1 t
    | ⟨2, _⟩ => iblk (F := Ideal) m c 2 t
    | ⟨3, _⟩ => win0_3.fill (grid0.coords t) (fun _ => (0 : EReal)) ((win0_3.blk t).view.read (Elt Ideal) (flatOf m c))
  Φ _ := Pipeline.ΦA spec0 c
  q _ := fullShare
  owed _ := 0

theorem A_eq (c : Dev nD) (w : Fin cfg0.W) : (dats m 0 c).A w = V (F := Ideal) m c (Pipeline.arrRef spec0 w) := by
  dsimp only [dats]

theorem after0_0 (c : Dev nD) (t : Fin cfg0.N) :
    (dats m 0 c).after 0 t = win0_0.fill (grid0.coords t) (fun _ => (0 : EReal)) (iblk (F := Ideal) m c 0 t) := by
  dsimp only [dats]
theorem after0_1 (c : Dev nD) (t : Fin cfg0.N) : (dats m 0 c).after 1 t = iblk (F := Ideal) m c 1 t := by dsimp only [dats]
theorem after0_2 (c : Dev nD) (t : Fin cfg0.N) : (dats m 0 c).after 2 t = iblk (F := Ideal) m c 2 t := by dsimp only [dats]
theorem after0_3 (c : Dev nD) (t : Fin cfg0.N) :
    (dats m 0 c).after 3 t
      = win0_3.fill (grid0.coords t) (fun _ => (0 : EReal)) ((win0_3.blk t).view.read (Elt Ideal) (flatOf m c)) := by
  dsimp only [dats]

/-- The activations' buffer as the body finds it: just fetched, the block on the rows inside the array, `d` elsewhere. -/
theorem before0_0 (c : Dev nD) (t : Fin cfg0.N) (d) :
    (dats m 0 c).before 0 t d = win0_0.fill (grid0.coords t) d (iblk (F := Ideal) m c 0 t) := by
  unfold Dat.before; rw [if_pos (fetch0_0 t)]; rfl
/-- The weights' and the bias's buffers hold their blocks at every point. -/
theorem before0_1 (c : Dev nD) (t : Fin cfg0.N) (d) : (dats m 0 c).before 1 t d = iblk (F := Ideal) m c 1 t :=
  before0_1_of m (dats m 0 c) (A_eq m c 1) (after0_1 m c) t d
theorem before0_2 (c : Dev nD) (t : Fin cfg0.N) (d) : (dats m 0 c).before 2 t d = iblk (F := Ideal) m c 2 t :=
  before0_2_of m (dats m 0 c) (A_eq m c 2) (after0_2 m c) t d

end Cert.ReferenceIdeal.Body

end
-- ==== Proof.RefObl.lean ====
/-
  The reference's body at a grid point, on the rows inside the arrays.

  Whatever the activations' staging buffer holds on the rows past the array's end, on a row inside the array it holds the
  array's row (`staged_row`); the weights' and the bias's buffers hold the whole arrays. Row `r` of the output buffer is
  computed from row `r` of the slabs alone, so on the rows inside the array the output buffer is the point's block of the
  flat result (`cut_out`). That is what the body's contract at a point asks (`body_obligation`).
-/
import proofs.«139139_g2000506491249462_pallasbulk_655_8_alg».proof.Proof.RefRun

set_option maxRecDepth 16384

noncomputable section

namespace Cert.ReferenceIdeal.Body

open Cert.ReferenceIdeal Cert.ReferenceIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The staged blocks, entry by entry -/

/-- A row of the activations' buffer inside the array is the array's row `56·t + r`. -/
theorem staged_row (c : Dev nD) (t : Fin cfg0.N) (X : FVec Ideal S64x56x512 .f32)
    (hX : ∀ p : (win0_0.xblock (grid0.coords t)).Idx, X (win0_0.xinj (grid0.coords t) p) = iblk (F := Ideal) m c 0 t p)
    (b b' : Fin 64) (hb : b.val = b'.val) (r : Fin 56) (k : Fin 512) (hr : r.val < win0_3.xsize (grid0.coords t) (0 : Fin 2))
    (R : Fin 512) (hR : R.val = win0_3.index t (0 : Fin 2) * 56 + r.val) :
    X (ix3 b r k) = V (F := Ideal) m c main_arg0 (ix3 b' R k) := by
  obtain ⟨f0, f1, f2, f3, f4, f5, f6, f7, f8, f9, f10, f11, f12, f13⟩ := pt_facts t
  have hb64 : b.val < 64 := b.isLt
  have hk : k.val < 512 := k.isLt
  let p : (win0_0.xblock (grid0.coords t)).Idx := fun a => match a with
    | ⟨0, _⟩ => ⟨b.val, by show b.val < win0_0.xsize (grid0.coords t) (0 : Fin 3); omega⟩
    | ⟨1, _⟩ => ⟨r.val, by show r.val < win0_0.xsize (grid0.coords t) (1 : Fin 3); omega⟩
    | ⟨2, _⟩ => ⟨k.val, by show k.val < win0_0.xsize (grid0.coords t) (2 : Fin 3); omega⟩
  have e1 : ix3 b r k = win0_0.xinj (grid0.coords t) p := funext fun a => Fin.ext (by
    match a with
    | ⟨0, _⟩ => rfl
    | ⟨1, _⟩ => rfl
    | ⟨2, _⟩ => rfl)
  rw [e1, hX p]
  show V (F := Ideal) m c main_arg0 (((cfg0.win 0).blk t).view.emb p) = _
  refine congrArg _ (funext fun a => Fin.ext ?_)
  match a with
  | ⟨0, _⟩ => show win0_0.index t (0 : Fin 3) * 64 + 1 * b.val = b'.val; omega
  | ⟨1, _⟩ => show win0_0.index t (1 : Fin 3) * 56 + 1 * r.val = R.val; omega
  | ⟨2, _⟩ => show win0_0.index t (2 : Fin 3) * 512 + 1 * k.val = k.val; omega

/-- The weights' buffer holds the weights. -/
theorem staged_w (c : Dev nD) (t : Fin cfg0.N) (k : Fin 512) (d d' : Fin 1024) (hd : d.val = d'.val) :
    iblk (F := Ideal) m c 1 t (ix2 k d) = V (F := Ideal) m c main_arg1 (ix2 k d') := by
  obtain ⟨f0, f1, f2, f3, f4, f5, f6, f7, f8, f9, f10, f11, f12, f13⟩ := pt_facts t
  show V (F := Ideal) m c main_arg1 (((cfg0.win 1).blk t).view.emb (ix2 k d)) = _
  refine congrArg _ (funext fun a => Fin.ext ?_)
  match a with
  | ⟨0, _⟩ => show win0_1.index t (0 : Fin 2) * 512 + 1 * k.val = k.val; omega
  | ⟨1, _⟩ => show win0_1.index t (1 : Fin 2) * 1024 + 1 * d.val = d'.val; omega

/-- The bias's buffer holds the bias. -/
theorem staged_b (c : Dev nD) (t : Fin cfg0.N) (d d' : Fin 1024) (hd : d.val = d'.val) :
    iblk (F := Ideal) m c 2 t (ix2 (0 : Fin 1) d) = V (F := Ideal) m c main_arg2 (ix2 (0 : Fin 1) d') := by
  obtain ⟨f0, f1, f2, f3, f4, f5, f6, f7, f8, f9, f10, f11, f12, f13⟩ := pt_facts t
  show V (F := Ideal) m c main_arg2 (((cfg0.win 2).blk t).view.emb (ix2 (0 : Fin 1) d)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * d.val = d'.val; omega

/-! ## The output buffer on the rows inside the array -/

/-- On the rows the write-back moves, the output buffer is the point's block of the flat result, whatever the
    activations' buffer holds past the array's end. -/
theorem cut_out (c : Dev nD) (t : Fin cfg0.N) (X : FVec Ideal S64x56x512 .f32)
    (hX : ∀ p : (win0_0.xblock (grid0.coords t)).Idx, X (win0_0.xinj (grid0.coords t) p) = iblk (F := Ideal) m c 0 t p) :
    win0_3.cut (grid0.coords t) (outBuf (F := Ideal) X (iblk (F := Ideal) m c 1 t) (iblk (F := Ideal) m c 2 t))
      = (win0_3.blk t).view.read (Elt Ideal) (flatOf m c) := by
  rw [outBuf_eq]
  obtain ⟨f0, f1, f2, f3, f4, f5, f6, f7, f8, f9, f10, f11, f12, f13⟩ := pt_facts t
  funext j
  have hj0 : (j 0).val < win0_3.xsize (grid0.coords t) (0 : Fin 2) := (j 0).isLt
  show bufVal X (iblk (F := Ideal) m c 1 t) (iblk (F := Ideal) m c 2 t) (win0_3.xinj (grid0.coords t) j)
      = flatOf m c (((cfg0.win 3).blk t).view.emb j)
  unfold bufVal flatOf flatVal proj
  refine congrArg₂ (· + ·) (Finset.sum_congr rfl fun k _ => congrArg₂ (· * ·) ?_ ?_) ?_
  · refine staged_row m c t X hX _ _ ?_ _ k ?_ _ ?_
    · show (j 1).val / 1024 = (win0_3.index t (1 : Fin 2) * 65536 + 1 * (j 1).val) / 1024
      rw [f8]; omega
    · exact hj0
    · show win0_3.index t (0 : Fin 2) * 56 + 1 * (j 0).val = win0_3.index t (0 : Fin 2) * 56 + (j 0).val
      omega
  · refine staged_w m c t k _ _ ?_
    show (j 1).val % 1024 = (win0_3.index t (1 : Fin 2) * 65536 + 1 * (j 1).val) % 1024
    rw [f8]; omega
  · refine staged_b m c t _ _ ?_
    show (j 1).val % 1024 = (win0_3.index t (1 : Fin 2) * 65536 + 1 * (j 1).val) % 1024
    rw [f8]; omega

/-! ## The body obligation -/

/-- What the body is called with at point `t`, window by window; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two clipped windows' buffers stated on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        (win0_3.fill (grid0.coords t) d (win0_3.cut (grid0.coords t) ((dats m 0 c).after 3 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, win0_0.cut_fill, win0_3.cut_fill]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _
    (win0_0.fill (grid0.coords t) d0 (iblk (F := Ideal) m c 0 t)) (iblk (F := Ideal) m c 1 t) (iblk (F := Ideal) m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists outBuf (F := Ideal) (win0_0.fill (grid0.coords t) d0 (iblk (F := Ideal) m c 0 t)) (iblk (F := Ideal) m c 1 t)
    (iblk (F := Ideal) m c 2 t)
  rw [← cut_out m c t (win0_0.fill (grid0.coords t) d0 (iblk (F := Ideal) m c 0 t))
    (fun p => win0_0.fill_xinj (grid0.coords t) d0 (iblk (F := Ideal) m c 0 t) p), win0_3.fill_cut]
  iexact H3

/-- The library's body obligation, at every point. -/
theorem body_obligation (c : Dev nD) :
    BodyObligationLoose (dats m 0 c) (defs₀ (F := Ideal)) Variants.none () Set.univ := fun t => by
  rw [bigSep_W0, bigSep_W0]
  exact sound_body m c t

end Cert.ReferenceIdeal.Body

end
-- ==== Proof.RefFinal.lean ====
/-
  The reference's run, read: the frame, the flat array after the region, and the reshaped result.

  The ten write-backs move rows `56·t ‥` of the flat [512, 65536] array, the last one only the 8 rows inside; together they
  cover the array, and each writes its block of the flat result `flatVal` of the arguments. The host line after the region
  reshapes the flat array to [512, 64, 1024]: entry (t, b, d) is the flat entry (t, 1024·b + d), feature `d` of token
  (b, t) — `tokVal`.
-/
import proofs.«139139_g2000506491249462_pallasbulk_655_8_alg».proof.Proof.RefObl

set_option maxRecDepth 16384

noncomputable section

namespace Cert.ReferenceIdeal.Body

open Cert.ReferenceIdeal Cert.ReferenceIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The frame run -/

set_option backward.isDefEq.respectTransparency.types false in
/-- Every weakly fair execution of @main terminates; every array of the pipeline ends at what the proof data compute and
    every other unscoped buffer at the host line's result over those. -/
theorem run_main : θ_run defs (onTc (τ := τ) (main (F := Ideal))) (s₀ m ρ)
    (Pipeline.FramePost cfgs (dats m) 0 (Pipeline.afterTail₀ cfgs (dats m) 0 (V0 (F := Ideal) m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 (F := Ideal) m) (opss := [hostOps1]) (hsub := sfx_sub) (hfresh := sfx_fresh) (hkeep := sfx_keeps)
    (hmain := hmain m Variants.none) (hA := A_eq m) (hΦ := fun _ _ => rfl)

/-- The reference's frame: it runs and its arguments end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## The flat array after the region -/

/-- What point `t` writes back is its block of the flat result. -/
theorem flushed_eq (c : Dev nD) (t : Fin cfg0.N) :
    (dats m 0 c).flushed 3 t = ((cfg0.win 3).blk t).view.read (Elt Ideal) (flatOf m c) := by
  show (cfg0.win 3).cut (grid0.coords t) ((dats m 0 c).after 3 t) = _
  rw [after0_3]
  exact win0_3.cut_fill _ _ _

/-- An index of the flat array is in point `t`'s block iff its row is among the rows the write-back moves. -/
theorem mem_blk (t : Fin cfg0.N) (i : S512x65536.Idx) :
    i ∈ ((cfg0.win 3).blk t).view.set ↔ ∀ a : Fin 2, win0_3.index t a * S56x65536.size a ≤ (i a).val
      ∧ (i a).val < win0_3.index t a * S56x65536.size a + win0_3.xsize (grid0.coords t) a := by
  show i ∈ ((View.whole main_call0_v0).slice (win0_3.rect t)).set ↔ _
  rw [View.set_slice_whole, Rect.mem_set_unit]
  exact Iff.rfl

/-- Every block of rows is some point's, whole but for the last. -/
theorem idx_onto : ∀ q : Fin 10, ∃ t : Fin cfg0.N, win0_3.index t (0 : Fin 2) = q.val ∧ win0_3.index t (1 : Fin 2) = 0
    ∧ win0_3.xsize (grid0.coords t) (1 : Fin 2) = 65536
    ∧ (q.val < 9 → win0_3.xsize (grid0.coords t) (0 : Fin 2) = 56)
    ∧ (q.val = 9 → win0_3.xsize (grid0.coords t) (0 : Fin 2) = 8) :=
  (by decide +kernel : ∀ q : Fin 10, ∃ t : Fin grid0.N, win0_3.index t (0 : Fin 2) = q.val ∧ win0_3.index t (1 : Fin 2) = 0
    ∧ win0_3.xsize (grid0.coords t) (1 : Fin 2) = 65536
    ∧ (q.val < 9 → win0_3.xsize (grid0.coords t) (0 : Fin 2) = 56)
    ∧ (q.val = 9 → win0_3.xsize (grid0.coords t) (0 : Fin 2) = 8))

/-- The blocks cover the flat array: row `r` is in block `r / 56`. -/
theorem cover (i : S512x65536.Idx) :
    ∃ t : Fin cfg0.N, (cfg0.win 3).flush t = true ∧ i ∈ ((cfg0.win 3).blk t).view.set := by
  have h0 : (i 0).val < 512 := (i 0).isLt
  have h1 : (i 1).val < 65536 := (i 1).isLt
  obtain ⟨t, q0, q1, q2, q3, q4⟩ := idx_onto ⟨(i 0).val / 56, by omega⟩
  have q0' : win0_3.index t (0 : Fin 2) = (i 0).val / 56 := q0
  have q3' : (i 0).val / 56 < 9 → win0_3.xsize (grid0.coords t) (0 : Fin 2) = 56 := q3
  have q4' : (i 0).val / 56 = 9 → win0_3.xsize (grid0.coords t) (0 : Fin 2) = 8 := q4
  refine ⟨t, flush0_3 t, ?_⟩
  rw [mem_blk]
  intro a
  match a with
  | ⟨0, _⟩ =>
    show win0_3.index t (0 : Fin 2) * 56 ≤ (i 0).val
      ∧ (i 0).val < win0_3.index t (0 : Fin 2) * 56 + win0_3.xsize (grid0.coords t) (0 : Fin 2)
    by_cases h9 : (i 0).val / 56 = 9
    · rw [q4' h9]; omega
    · rw [q3' (by omega)]; omega
  | ⟨1, _⟩ =>
    show win0_3.index t (1 : Fin 2) * 65536 ≤ (i 1).val
      ∧ (i 1).val < win0_3.index t (1 : Fin 2) * 65536 + win0_3.xsize (grid0.coords t) (1 : Fin 2)
    rw [q1, q2]; omega

/-- The flat array after the region is the flat result of the arguments. -/
theorem final_flat (c : Dev nD) : (dats m 0 c).arrAt 3 cfg0.N = flatOf m c :=
  (dats m 0 c).arrAt_eq_of_cover 3 (flatOf m c) (fun t _ => flushed_eq m c t) (cover)

end Cert.ReferenceIdeal.Body

end
-- ==== Proof.RefTail.lean ====
/-
  The reference's result: the flat array reshaped.

  The host line after the region reshapes the flat [512, 65536] array to [512, 64, 1024] in row-major order: entry (t, b, d)
  of the result is entry (t, 1024·b + d) of the flat array, feature `d` of token (b, t). So the reference's result is
  `tokVal` of its arguments.
-/
import proofs.«139139_g2000506491249462_pallasbulk_655_8_alg».proof.Proof.RefFinal
import Idealize.ShloMosaic.Lib.StableHlo.Run

set_option maxRecDepth 16384

noncomputable section

namespace Cert.ReferenceIdeal.Body

open Cert.ReferenceIdeal Cert.ReferenceIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The flat array as the host line finds it: the region's exit contents. -/
theorem exit_flat (c : Dev nD) :
    Pipeline.withArrays spec0 c (V0 (F := Ideal) m c) (fun w => (dats m 0 c).arrAt w cfg0.N) (Proc.devRef .tc main_call0_v0)
      = flatOf m c :=
  (Pipeline.withArrays_arr spec0 launch0.win.arr_inj c _ _ 3).trans (final_flat m c)

/-- Entry (t, b, d) of the reshaped array is the flat entry (t, 1024·b + d): feature `d` of token (b, t). -/
theorem flat_reshaped (c : Dev nD) (i : S512x64x1024.Idx) :
    shapeCast S512x64x1024 (flatOf m c) shapeCasts_S512x65536_S512x64x1024 i
      = tokVal (m ((c : Thread nD τ).loc main_arg0)) (m ((c : Thread nD τ).loc main_arg1)) (m ((c : Thread nD τ).loc main_arg2)) i := by
  have h0 : (i 0).val < 512 := (i 0).isLt
  have h1 : (i 1).val < 64 := (i 1).isLt
  have h2 : (i 2).val < 1024 := (i 2).isLt
  refine (shapeCast_apply (flatOf m c) shapeCasts_S512x65536_S512x64x1024 i
    (ix2 (⟨(i 0).val, h0⟩ : Fin 512) (⟨(i 1).val * 1024 + (i 2).val, by omega⟩ : Fin 65536)) ?_).trans ?_
  · rw [Shape.rowMajor_val_two, Shape.rowMajor_val_three]
    show (i 0).val * 65536 + ((i 1).val * 1024 + (i 2).val) = ((i 0).val * 64 + (i 1).val) * 1024 + (i 2).val
    omega
  · unfold flatOf flatVal tokVal
    refine proj_congr _ _ _ ?_ rfl ?_
    · show ((i 1).val * 1024 + (i 2).val) / 1024 = (i 1).val; omega
    · show ((i 1).val * 1024 + (i 2).val) % 1024 = (i 2).val; omega

/-- The result buffer after the host line. -/
theorem tail_eq (c : Dev nD) :
    Pipeline.afterTail₀ cfgs (dats m) 0 (V0 (F := Ideal) m) [hostOps1] c main_v0
      = tokVal (m ((c : Thread nD τ).loc main_arg0)) (m ((c : Thread nD τ).loc main_arg1)) (m ((c : Thread nD τ).loc main_arg2)) := by
  unfold Pipeline.afterTail₀
  show StableHlo.after hostOps1 _ (Proc.devRef .tc main_v0) = _
  after_results
  funext i
  show shapeCast S512x64x1024
      (Pipeline.withArrays spec0 c (V0 (F := Ideal) m c) (fun w => (dats m 0 c).arrAt w cfg0.N) (Proc.devRef .tc main_call0_v0))
      shapeCasts_S512x65536_S512x64x1024 i = _
  rw [exit_flat]
  exact flat_reshaped m c i

/-- The result buffer is no array of the pipeline. -/
theorem v0_rest : main_v0 ∈ Pipeline.restRefs sig spec0 := Pipeline.mem_restRefs_of main_v0 rfl (by decide)

/-- The reference's run: the result ends at `tokVal` of the arguments, the arguments unchanged. -/
theorem run : θ_run defs (onTc (τ := τ) (main (F := Ideal))) ⟨m, fun _ => 0, ρ⟩ fun r => ∀ c : Dev nD,
      r.2.mem ((c : Thread nD τ).loc main_v0)
        = tokVal (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v0 v0_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Body

end
-- ==== Proof.lean ====
/-
  The kernel and its reference compute one function over the extended reals.

  Both programs map every token (batch row `b`, time step `t`) of the activations `x` ([64, 512, 512]) through the affine
  map `v ↦ v · w + bias` and lay the results out time-major:
  `out[t, b, d] = ∑ k, x[b, t, k] · w[k, d] + bias[0, d]` (`Cert.Spec.tokVal`).

  The kernel does it on a 4 × 4 grid of blocks of 16 batch rows by 128 time steps: it swaps the block's first two axes,
  flattens (time, batch) into 2048 rows, multiplies once by the weights, adds the bias, and writes the block already in
  time-major order. Its changes of float format are the identity on the extended reals.

  The reference does it on ten blocks of 56 time steps of all 64 batch rows (the last block overhangs the 512 time steps
  and only its 8 rows inside the arrays are moved): for each batch row in turn it multiplies a [56, 512] slab by the weights,
  adds the bias and stores the result into its own band of 1024 columns of a [512, 65536] array, which a host reshape then
  reads as [512, 64, 1024].

  Entry by entry both results are the same sum of the same products, in the same order of the summation index, plus the
  same bias entry; no law of arithmetic is needed to join them, so the precondition (finite inputs) is not opened.
  The kernel's word-level program and its reading over the extended reals differ by no rewrite: `preserves` is trivial.
-/
import proofs.«139139_g2000506491249462_pallasbulk_655_8_alg».proof.Defs
import proofs.«139139_g2000506491249462_pallasbulk_655_8_alg».proof.Proof.Gen.Kernel
import proofs.«139139_g2000506491249462_pallasbulk_655_8_alg».proof.Proof.Gen.Kernel.Skeleton
import proofs.«139139_g2000506491249462_pallasbulk_655_8_alg».proof.Proof.Gen.Kernel.Launch
import proofs.«139139_g2000506491249462_pallasbulk_655_8_alg».proof.Proof.Gen.Kernel.Points
import proofs.«139139_g2000506491249462_pallasbulk_655_8_alg».proof.Proof.Gen.Kernel.Frame
import proofs.«139139_g2000506491249462_pallasbulk_655_8_alg».proof.Proof.Gen.KernelIdeal
import proofs.«139139_g2000506491249462_pallasbulk_655_8_alg».proof.Proof.Gen.KernelIdeal.Skeleton
import proofs.«139139_g2000506491249462_pallasbulk_655_8_alg».proof.Proof.Gen.KernelIdeal.Launch
import proofs.«139139_g2000506491249462_pallasbulk_655_8_alg».proof.Proof.Gen.KernelIdeal.Points
import proofs.«139139_g2000506491249462_pallasbulk_655_8_alg».proof.Proof.Gen.KernelIdeal.Frame
import proofs.«139139_g2000506491249462_pallasbulk_655_8_alg».proof.Proof.Gen.KernelIdeal.Value
import proofs.«139139_g2000506491249462_pallasbulk_655_8_alg».proof.Proof.Gen.ReferenceIdeal
import proofs.«139139_g2000506491249462_pallasbulk_655_8_alg».proof.Proof.Gen.ReferenceIdeal.Skeleton
import proofs.«139139_g2000506491249462_pallasbulk_655_8_alg».proof.Proof.Gen.ReferenceIdeal.Launch
import proofs.«139139_g2000506491249462_pallasbulk_655_8_alg».proof.Proof.Gen.ReferenceIdeal.Points
import proofs.«139139_g2000506491249462_pallasbulk_655_8_alg».proof.Proof.Gen.ReferenceIdeal.Frame
import proofs.«139139_g2000506491249462_pallasbulk_655_8_alg».proof.Proof.Gen.Pre_finite_inputs
import proofs.«139139_g2000506491249462_pallasbulk_655_8_alg».proof.Proof.KerValue
import proofs.«139139_g2000506491249462_pallasbulk_655_8_alg».proof.Proof.RefTail
import Idealize.ShloMosaic.Adequacy
import Idealize.ShloMosaic.Init

noncomputable section

namespace Cert.Proof

open Idealize.ShloMosaic Idealize.SL.Sem Cert.Spec

/-- The word-level kernel runs and keeps its arguments. -/
theorem frame_kernel : Cert.frame_Kernel := fun m ρ _ => Cert.Kernel.Gen.frame m ρ

/-- The kernel read over the extended reals runs and keeps its arguments. -/
theorem frame_kernelIdeal : Cert.frame_KernelIdeal := fun m ρ _ => Cert.KernelIdeal.Gen.frame m ρ

/-- The reference read over the extended reals runs and keeps its arguments. -/
theorem frame_referenceIdeal : Cert.frame_ReferenceIdeal := fun m ρ _ => Cert.ReferenceIdeal.Body.frame m ρ

/-- Reading the kernel over the extended reals rewrote no operation. -/
theorem preserves : Cert.preserves_Kernel_KernelIdeal := trivial

/-- From memories agreeing on the arguments both programs end with `tokVal` of the arguments in their result arrays. -/
theorem algebraic : Cert.algebraic_KernelIdeal_ReferenceIdeal := by
  intro m ρ m' ρ' _ hagree
  refine ⟨fun c => tokVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun r h c => ⟨(h c).1.trans ?_, (h c).2⟩)
    (Cert.ReferenceIdeal.Body.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
